-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S8x2048x1024 .f32) (main_arg1 : FVec F S8x2048x1024 .f32) (main_arg2 : FVec F S8x2048x1024 .f32) (main_arg3 : FVec F S1024x1024 .f32) (main_arg4 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8x2048x1024 : Shape := ⟨3, ![8, 2048, 1024]⟩
abbrev S1024x1024 : Shape := ⟨2, ![1024, 1024]⟩
abbrev S8x1024x1024 : Shape := ⟨3, ![8, 1024, 1024]⟩
abbrev S1x256x1024 : Shape := ⟨3, ![1, 256, 1024]⟩
abbrev S1x1024x1024 : Shape := ⟨3, ![1, 1024, 1024]⟩
abbrev S256x1024 : Shape := ⟨2, ![256, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x1024, .f32⟩
  | .hbm, ⟨4, _⟩ => ⟨S1024x1024, .f32⟩
  | .hbm, ⟨5, _⟩ => ⟨S8x1024x1024, .f32⟩
  | .hbm, ⟨6, _⟩ => ⟨S8x1024x1024, .bf16⟩
  | .hbm, ⟨7, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S8x128x1024, .f32⟩
  | .local _ .vmem, ⟨11, _⟩ => ⟨S8x128x1024, .f32⟩
  | .local _ .vmem, ⟨12, _⟩ => ⟨S8x128x1024, .bf16⟩
  | .local _ .vmem, ⟨13, _⟩ => ⟨S8x128x1024, .bf16⟩
  | .local _ .vmem, ⟨14, _⟩ => ⟨S1x1024x1024, .f32⟩
  | .local _ .vmem, ⟨15, _⟩ => ⟨S1x1024x1024, .f32⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .f32⟩
  | .local _ .vmem, ⟨19, _⟩ => ⟨S1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x128x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![8, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  inb_S8x128x1024_S8x128x1024_0_0_0 : ∀ a, (![0, 0, 0] : Fin 3 → Nat) a + S8x128x1024.size a ≤ S8x128x1024.size a
  h_S8x128x1024 : 0 < S8x128x1024.numel
  shapeCasts_S8x128x1024_S8x128x1024 : S8x128x1024.ShapeCasts S8x128x1024
  reduces_S8x128x1024_S128x1024 : S8x128x1024.Reduces [0] S128x1024
  shapeCasts_S128x1024_S1x128x1024 : S128x1024.ShapeCasts S1x128x1024
  broadcasts_S1x128x1024_S8x128x1024 : S1x128x1024.Broadcasts S8x128x1024
  bitsLt_bf16_f32 : FTy.bits .bf16 < FTy.bits .f32
  packedbf16_S8x128x1024_S8x128x1024_0_0_0 : (Rect.unit (s := S8x128x1024) ![0, 0, 0] S8x128x1024.size inb_S8x128x1024_S8x128x1024_0_0_0).PackedRows (EltTy.packing .bf16)
  dot_S256x1024_S1024x1024_S256x1024_1_0_0_1_n_n_wf : DotDims.WF S256x1024 S1024x1024 S256x1024 [1] [0] [0] [1] [] []
  dot_S256x1024_S256x1024_S1024x1024_0_0_1_1_n_n_wf : DotDims.WF S256x1024 S256x1024 S1024x1024 [0] [0] [1] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x2048x1024.size a
  hwx0_0 : ∀ i : grid0.Coords, EltTy.bits .f32 = 32 ∨ (Rect.block (s := S8x2048x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S8x2048x1024.size a
  hwx0_1 : ∀ i : grid0.Coords, EltTy.bits .f32 = 32 ∨ (Rect.block (s := S8x2048x1024) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S8x2048x1024.size a
  hwx0_2 : ∀ i : grid0.Coords, EltTy.bits .f32 = 32 ∨ (Rect.block (s := S8x2048x1024) S1x256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .f32 = 32 ∨ (Rect.block (s := S1024x1024) S1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S8x1024x1024.size a
  hwx0_5 : ∀ i : grid0.Coords, EltTy.bits .f32 = 32 ∨ (Rect.block (s := S8x1024x1024) S1x1024x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x1024.size a ≤ S8x1024x1024.size a
  hwx1_0 : ∀ i : grid1.Coords, EltTy.bits .f32 = 32 ∨ (Rect.block (s := S8x1024x1024) S8x128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128x1024.size a ≤ S8x1024x1024.size a
  hwx1_1 : ∀ i : grid1.Coords, EltTy.bits .bf16 = 32 ∨ (Rect.block (s := S8x1024x1024) S8x128x1024.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x1024.size a ≤ S8x2048x1024.size a
  hwx2_0 : ∀ i : grid2.Coords, EltTy.bits .f32 = 32 ∨ (Rect.block (s := S8x2048x1024) S1x1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x1024.size a ≤ S8x1024x1024.size a
  hwx2_1 : ∀ i : grid2.Coords, EltTy.bits .bf16 = 32 ∨ (Rect.block (s := S8x1024x1024) S1x1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x1024.size a ≤ S8x2048x1024.size a
  hwx2_2 : ∀ i : grid2.Coords, EltTy.bits .f32 = 32 ∨ (Rect.block (s := S8x2048x1024) S1x1024x1024.size (cc2_transform_2 i) (hinb2_2 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S256x1024_S1024x1024_0_0_1_1_n_n : DotDims S256x1024 S256x1024 S1024x1024 where
  lhsContracting := [0]
  rhsContracting := [0]
  lhsNonContracting := [1]
  rhsNonContracting := [1]
  lhsBatch := []
  rhsBatch := []
  wf := dot_S256x1024_S256x1024_S1024x1024_0_0_1_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S8x128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8x128x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg2) S1x1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S8x1024x1024 : Shape := ⟨3, ![8, 1024, 1024]⟩
abbrev S_ : Shape := ⟨0, ![]⟩
abbrev S1x1024x1024 : Shape := ⟨3, ![1, 1024, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x1024, .f32⟩
  | .hbm, ⟨4, _⟩ => ⟨S1024x1024, .f32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S8x2048x1024, .f32⟩
  | .hbm, ⟨9, _⟩ => ⟨S8x1024x1024, .f32⟩
  | .hbm, ⟨10, _⟩ => ⟨S_, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1x1024x1024, .f32⟩
  | .hbm, ⟨16, _⟩ => ⟨S8x1024x1024, .f32⟩
  | .hbm, ⟨17, _⟩ => ⟨S8x1024x1024, .f32⟩
  | .hbm, ⟨18, _⟩ => ⟨S8x1024x1024, .f32⟩
  | .hbm, ⟨19, _⟩ => ⟨S_, .f32⟩
  | .hbm, ⟨20, _⟩ => ⟨S1024x1024, .f32⟩
  | .hbm, ⟨21, _⟩ => ⟨S1x1024x1024, .f32⟩
  | .hbm, ⟨22, _⟩ => ⟨S8x1024x1024, .f32⟩
  | .hbm, ⟨23, _⟩ => ⟨S8x1024x1024, .f32⟩
  | .hbm, ⟨24, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  reducesTo_S8x1024x1024_S1024x1024_d0 : S8x1024x1024.ReducesTo [0] S1024x1024
  h_S_ : 0 < S_.numel
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S8x1024x1024_0_1_2 : S1x1024x1024.BroadcastsInDim S8x1024x1024 (![0, 1, 2] : Fin 3 → Fin S8x1024x1024.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x1024x1024_1_1_2_2_0_0_wf : DotDims.WF S8x2048x1024 S8x2048x1024 S8x1024x1024 [1] [1] [2] [2] [0] [0]
  dot_S8x2048x1024_S8x1024x1024_S8x2048x1024_2_1_1_2_0_0_wf : DotDims.WF S8x2048x1024 S8x1024x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x1024x1024_1_1_2_2_0_0 : DotDims S8x2048x1024 S8x2048x1024 S8x1024x1024 where
  lhsContracting := [1]
  rhsContracting := [1]
  lhsNonContracting := [2]
  rhsNonContracting := [2]
  lhsBatch := [0]
  rhsBatch := [0]
  wf := dot_S8x2048x1024_S8x2048x1024_S8x1024x1024_1_1_2_2_0_0_wf
def dot_S8x2048x1024_S8x1024x1024_S8x2048x1024_2_1_1_2_0_0 : DotDims S8x2048x1024 S8x1024x1024 S8x2048x1024 where
  lhsContracting := [2]
  rhsContracting := [1]
  lhsNonContracting := [1]
  rhsNonContracting := [2]
  lhsBatch := [0]
  rhsBatch := [0]
  wf := dot_S8x2048x1024_S8x1024x1024_S8x2048x1024_2_1_1_2_0_0_wf

class Facts : Prop extends Facts₀ where

variable [Facts]
-- ==== Proof.KernelRun.lean ====
/-
  The kernel program's run with its RESULT array named.

  The program is three regions in a row: the score accumulator writes s, the batch softmax reads s and writes the
  attention weights, the output projection reads v and the weights and writes the result. Every weakly fair execution
  terminates without a fault; at the end the result array holds what the third region's write-backs leave, computed
  from the buffer contents the second region left, themselves computed from what the first left, themselves from the
  launch memory; and the five argument arrays are as launched. This is the same run as the frame's, with the result
  array kept in the final reading next to the arguments.
-/
import proofs.«172361_j49082886259369_2_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the contents the last region
    leaves (the fold of the three regions' write-backs from the launch memory) and the arguments as launched. -/
theorem run_out : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.Hand

end
-- ==== Proof.R0Pieces.lean ====
/-
  Region 0 (the score accumulator), what one grid point leaves in the output block.

  The body of a point loads its q, k, v blocks [1,256,1024], the two weight matrices, and the output block as it stands,
  and stores back ONE whole-block value: the block as it stood plus v_blockᵀ · tanh(k_block·W + q_block·U). At the first
  point of a batch (sequence block 0) it first overwrites the output block with zeros, so the value it adds to is the
  zero block. These two lemmas say exactly that, for any float instance: the staging buffer after the point is the
  body's one arithmetic term, applied to the blocks and to the running contents (or to the zero block).
-/
import proofs.«172361_j49082886259369_2_alg».proof.Proof.Gen.KernelIdeal.Frame
import Idealize.ShloMosaic.Lib.Pipeline.Value
import Idealize.ShloMosaic.Lib.Tactic

noncomputable section

namespace Cert.KernelIdeal.Hand

open Idealize.ShloMosaic Idealize.ShloMosaic.TcCoe Idealize.SL.Sem
open Cert.KernelIdeal Cert.KernelIdeal.Gen

variable {F : FTy → Type} [FloatOps F]

theorem r0_hz3 : (![0, 0, 0] : Fin 3 → Nat) = fun _ => 0 := funext fun a => by fin_cases a <;> rfl
theorem r0_hz2 : (![0, 0] : Fin 2 → Nat) = fun _ => 0 := funext fun a => by fin_cases a <;> rfl

/-- A point that is not the first of its batch: the block as it stood, plus this sequence block's contribution. -/
theorem r0_out_B (c : Dev nD) (i : grid0.Coords) (a2 : Memref sig .tc .vmem S1x256x1024 .f32) (h2 : a2.IsWhole) (a3 : Memref sig .tc .vmem S1x256x1024 .f32) (h3 : a3.IsWhole) (a4 : Memref sig .tc .vmem S1x256x1024 .f32) (h4 : a4.IsWhole) (a5 : Memref sig .tc .vmem S1024x1024 .f32) (h5 : a5.IsWhole) (a6 : Memref sig .tc .vmem S1024x1024 .f32) (h6 : a6.IsWhole) (a7 : Memref sig .tc .vmem S1x1024x1024 .f32) (h7 : a7.IsWhole) (hc : ¬cond0_0 i)
    (x0 x1 x2 : Vec F S1x256x1024 .f32) (x3 x4 : Vec F S1024x1024 .f32) (xo : Vec F S1x1024x1024 .f32) :
    out0_B_5 c i a2 h2 a3 h3 a4 h4 a5 h5 a6 h6 a7 h7 hc x0 x1 x2 x3 x4 xo = k0_pay2 x0 x1 x2 x3 x4 xo := by
  unfold out0_B_5
  rw [View.read_writes_eq_canon _ _ _ (cover0_B_5 c i a2 h2 a3 h3 a4 h4 a5 h5 a6 h6 a7 h7 hc x0 x1 x2 x3 x4 xo)]
  unfold kernelRun0_B
  dsimp only
  rw [View.canon_unit_zero r0_hz3]
  simp only [View.readAt_eq_ld, h2.read_unread, h3.read_unread, h4.read_unread, h5.read_unread, h6.read_unread, h7.read_unread,
    View.ld_unit_zero (S := S1x256x1024) r0_hz3, View.ld_unit_zero (S := S1024x1024) r0_hz2,
    View.ld_unit_zero (S := S1x1024x1024) r0_hz3]

/-- The first point of a batch: the zero block, plus the first sequence block's contribution. -/
theorem r0_out_A (c : Dev nD) (i : grid0.Coords) (a2 : Memref sig .tc .vmem S1x256x1024 .f32) (h2 : a2.IsWhole) (a3 : Memref sig .tc .vmem S1x256x1024 .f32) (h3 : a3.IsWhole) (a4 : Memref sig .tc .vmem S1x256x1024 .f32) (h4 : a4.IsWhole) (a5 : Memref sig .tc .vmem S1024x1024 .f32) (h5 : a5.IsWhole) (a6 : Memref sig .tc .vmem S1024x1024 .f32) (h6 : a6.IsWhole) (a7 : Memref sig .tc .vmem S1x1024x1024 .f32) (h7 : a7.IsWhole) (hc : cond0_0 i)
    (x0 x1 x2 : Vec F S1x256x1024 .f32) (x3 x4 : Vec F S1024x1024 .f32) :
    out0_A_5 c i a2 h2 a3 h3 a4 h4 a5 h5 a6 h6 a7 h7 hc x0 x1 x2 x3 x4 = k0_pay2 x0 x1 x2 x3 x4 (k0_pay1 (F := F)) := by
  unfold out0_A_5
  rw [View.read_writes_eq_canon _ _ _ (cover0_A_5 c i a2 h2 a3 h3 a4 h4 a5 h5 a6 h6 a7 h7 hc x0 x1 x2 x3 x4)]
  unfold kernelRun0_A
  dsimp only
  sl_unfold_words
  rw [View.canon_cons_unit_zero (S := S1x1024x1024) r0_hz3, View.readCov_unit_zero (S := S1x1024x1024) _ r0_hz3]
  simp only [View.readAt_eq_ld, h2.read_unread, h3.read_unread, h4.read_unread, h5.read_unread, h6.read_unread,
    View.ld_unit_zero (S := S1x256x1024) r0_hz3, View.ld_unit_zero (S := S1024x1024) r0_hz2,
    View.ld_unit_zero (S := S1x1024x1024) r0_hz3]

end Cert.KernelIdeal.Hand

end
-- ==== Proof.R0Payload.lean ====
/-
  Region 0, the body's arithmetic read entry by entry on the extended reals.

  With q, k, v the point's blocks [1,256,1024], W and U the weights and acc the output block as it stands, the stored
  block at (0, d, e) is
      acc(0,d,e) + Σ_{r<256} v(0,r,d) · tanh( Σ_{d'} k(0,r,d')·W(d',e) + Σ_{d'} q(0,r,d')·U(d',e) ):
  each of the three matrix products into a zero accumulator is the plain sum over its one contracted axis (rows times
  columns for the two projections, rows against rows for vᵀ·fac), the unit leading axis is added and dropped by
  reshapes that do not move an entry, and the zero block is 0 everywhere.
-/
import proofs.«172361_j49082886259369_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx
open Cert.KernelIdeal Cert.KernelIdeal.Gen

theorem r0_rows_lhs0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl

theorem r0_rows_rhs1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A [256,1024] by [1024,1024] product into zeros, at (r, e): the sum over the shared axis. -/
theorem r0_mm_rows (l : FVec Ideal S256x1024 .f32) (w : FVec Ideal S1024x1024 .f32) (r : Fin 256) (e : Fin 1024) :
    matmul dot_S256x1024_S1024x1024_S256x1024_1_0_0_1_n_n (some .fp32) l w (constant (F := Ideal) S256x1024 .f32 0x00000000#32) (ix2 r e)
      = ∑ d : Fin 1024, l (ix2 r d) * w (ix2 d e) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r e) ((contrEquiv1 dot_S256x1024_S1024x1024_S256x1024_1_0_0_1_n_n 1024 rfl rfl).symm k) = ix2 r k :=
    funext fun a => Fin.ext (by
      match a with
      | ⟨0, _⟩ => exact r0_rows_lhs0 _ _
      | ⟨1, _⟩ => exact (dot_S256x1024_S1024x1024_S256x1024_1_0_0_1_n_n.lhsIdx_val_of_single rfl _ _).trans hk)
  have er : dot_S256x1024_S1024x1024_S256x1024_1_0_0_1_n_n.rhsIdx (ix2 r e) ((contrEquiv1 dot_S256x1024_S1024x1024_S256x1024_1_0_0_1_n_n 1024 rfl rfl).symm k) = ix2 k e :=
    funext fun a => Fin.ext (by
      match a with
      | ⟨0, _⟩ => exact (dot_S256x1024_S1024x1024_S256x1024_1_0_0_1_n_n.rhsIdx_val_of_single rfl _ _).trans hk
      | ⟨1, _⟩ => exact r0_rows_rhs1 _ _)
  rw [el, er]

theorem r0_cols_lhs1 (i : S1024x1024.Idx) (q : dot_S256x1024_S256x1024_S1024x1024_0_0_1_1_n_n.contr.Idx) :
    (dot_S256x1024_S256x1024_S1024x1024_0_0_1_1_n_n.lhsIdx i q 1).val = (i 0).val := by
  unfold DotDims.lhsIdx
  rw [dif_neg (show ¬(1 : Fin S256x1024.rank) ∈ dot_S256x1024_S256x1024_S1024x1024_0_0_1_1_n_n.lhsBatch by decide), dif_pos (show (1 : Fin S256x1024.rank) ∈ dot_S256x1024_S256x1024_S1024x1024_0_0_1_1_n_n.lhsNonContracting by decide)]
  rfl

theorem r0_cols_rhs1 (i : S1024x1024.Idx) (q : dot_S256x1024_S256x1024_S1024x1024_0_0_1_1_n_n.contr.Idx) :
    (dot_S256x1024_S256x1024_S1024x1024_0_0_1_1_n_n.rhsIdx i q 1).val = (i 1).val := by
  unfold DotDims.rhsIdx
  rw [dif_neg (show ¬(1 : Fin S256x1024.rank) ∈ dot_S256x1024_S256x1024_S1024x1024_0_0_1_1_n_n.rhsBatch by decide), dif_pos (show (1 : Fin S256x1024.rank) ∈ dot_S256x1024_S256x1024_S1024x1024_0_0_1_1_n_n.rhsNonContracting by decide)]
  rfl

/-- A [256,1024] transposed by [256,1024] product into zeros, at (d, e): the sum over the 256 shared rows. -/
theorem r0_mm_cols (a b : FVec Ideal S256x1024 .f32) (d e : Fin 1024) :
    matmul dot_S256x1024_S256x1024_S1024x1024_0_0_1_1_n_n (some .fp32) a b (constant (F := Ideal) S1024x1024 .f32 0x00000000#32) (ix2 d e)
      = ∑ r : Fin 256, a (ix2 r d) * b (ix2 r e) := by
  simp only [matmul]
  rw [Ideal.matmul_constant_zero_apply, ← Equiv.sum_comp (contrEquiv1 dot_S256x1024_S256x1024_S1024x1024_0_0_1_1_n_n 256 rfl rfl).symm]
  refine Finset.sum_congr rfl fun k _ => ?_
  have hk := contrEquiv1_symm_val dot_S256x1024_S256x1024_S1024x1024_0_0_1_1_n_n 256 rfl rfl k
  have el : dot_S256x1024_S256x1024_S1024x1024_0_0_1_1_n_n.lhsIdx (ix2 d e) ((contrEquiv1 dot_S256x1024_S256x1024_S1024x1024_0_0_1_1_n_n 256 rfl rfl).symm k) = ix2 k d :=
    funext fun a => Fin.ext (by
      match a with
      | ⟨0, _⟩ => exact (dot_S256x1024_S256x1024_S1024x1024_0_0_1_1_n_n.lhsIdx_val_of_single rfl _ _).trans hk
      | ⟨1, _⟩ => exact r0_cols_lhs1 _ _)
  have er : dot_S256x1024_S256x1024_S1024x1024_0_0_1_1_n_n.rhsIdx (ix2 d e) ((contrEquiv1 dot_S256x1024_S256x1024_S1024x1024_0_0_1_1_n_n 256 rfl rfl).symm k) = ix2 k e :=
    funext fun a => Fin.ext (by
      match a with
      | ⟨0, _⟩ => exact (dot_S256x1024_S256x1024_S1024x1024_0_0_1_1_n_n.rhsIdx_val_of_single rfl _ _).trans hk
      | ⟨1, _⟩ => exact r0_cols_rhs1 _ _)
  rw [el, er]

/-- The zero block is 0 at every entry. -/
theorem r0_pay1_apply (y : S1x1024x1024.Idx) : k0_pay1 (F := Ideal) y = 0 := by
  obtain ⟨u, d, e, rfl⟩ : ∃ (u : Fin 1) (d e : Fin 1024), y = ix3 u d e := ⟨y 0, y 1, y 2, eq_ix3 y⟩
  unfold k0_pay1
  refine (shapeCast_ab_1ab_apply _ _ u d e).trans ?_
  show Ideal.ofBits .f32 0x00000000#32 = 0
  exact Ideal.ofBits_zero_f32

/-- The stored block, entry by entry. -/
theorem r0_pay2_apply (x0 x1 x2 : Vec Ideal S1x256x1024 .f32) (x3 x4 : Vec Ideal S1024x1024 .f32) (xo : Vec Ideal S1x1024x1024 .f32)
    (u : Fin 1) (d e : Fin 1024) :
    k0_pay2 x0 x1 x2 x3 x4 xo (ix3 u d e)
      = xo (ix3 (0 : Fin 1) d e) + ∑ r : Fin 256, x2 (ix3 (0 : Fin 1) r d)
          * Ideal.tanh ((∑ d' : Fin 1024, x1 (ix3 (0 : Fin 1) r d') * x3 (ix2 d' e))
              + ∑ d' : Fin 1024, x0 (ix3 (0 : Fin 1) r d') * x4 (ix2 d' e)) := by
  unfold k0_pay2
  refine (shapeCast_ab_1ab_apply _ _ u d e).trans ?_
  refine (addf_apply _ _ _).trans ?_
  refine congrArg₂ (· + ·) (shapeCast_1ab_ab_apply xo _ d e) ?_
  refine (r0_mm_cols _ _ d e).trans ?_
  refine Finset.sum_congr rfl fun r _ => ?_
  refine congrArg₂ (· * ·) (shapeCast_1ab_ab_apply x2 _ r d) ?_
  refine congrArg Ideal.tanh ?_
  refine (addf_apply _ _ _).trans ?_
  refine congrArg₂ (· + ·) ?_ ?_
  · refine (r0_mm_rows _ _ r e).trans ?_
    exact Finset.sum_congr rfl fun d' _ => congrArg (· * x3 (ix2 d' e)) (shapeCast_1ab_ab_apply x1 _ r d')
  · refine (r0_mm_rows _ _ r e).trans ?_
    exact Finset.sum_congr rfl fun d' _ => congrArg (· * x4 (ix2 d' e)) (shapeCast_1ab_ab_apply x0 _ r d')

end Cert.KernelIdeal.Hand

end
-- ==== Proof.Spec.lean ====
/-
  Additive tanh attention with the softmax taken over the BATCH axis, as functions on the extended reals.

  For q, k, v : [8, 2048, 1024] and W, U : [1024, 1024]:
    fac   (b, s, e) = tanh (Σ_d k(b,s,d)·W(d,e) + Σ_d q(b,s,d)·U(d,e))
    score (b, d, e) = Σ_s v(b,s,d) · fac(b,s,e)
    soft  (b, d, e) = exp(score(b,d,e) − M(d,e)) / Σ_b' exp(score(b',d,e) − M(d,e)),   M(d,e) = max_b score(b,d,e)
    out   (b, s, e) = Σ_d v(b,s,d) · soft(b,d,e)
  A sum over the 2048 sequence positions is the sum of the eight sums over its blocks of 256 consecutive positions;
  the partial sums over the first n blocks are what an accumulator holds after n steps. Only commutativity and
  associativity of + on the extended reals are used: nothing here needs an entry to be finite.
-/
import Idealize.ShloMosaic.PureOps.Ideal
import Idealize.ShloMosaic.PureOps.Ideal.Laws
import Idealize.ShloMosaic.Lib.ValueIdx

noncomputable section

namespace BatchAttn

open Idealize.ShloMosaic Idealize.ShloMosaic.ValueIdx

abbrev SQ : Shape := ⟨3, ![8, 2048, 1024]⟩
abbrev SW : Shape := ⟨2, ![1024, 1024]⟩
abbrev SS : Shape := ⟨3, ![8, 1024, 1024]⟩

/-- The f32 pattern of −∞ is the bottom of the extended reals. -/
theorem ofBits_neg_inf : Ideal.ofBits .f32 0xFF800000#32 = (⊥ : EReal) := by simp [Ideal.ofBits, Ideal.ieee]

/-- Position r of block j of the sequence axis. -/
def row (j : Fin 8) (r : Fin 256) : Fin 2048 := ⟨256 * j.val + r.val, by have := j.isLt; have := r.isLt; omega⟩

theorem row_val (j : Fin 8) (r : Fin 256) : (row j r).val = 256 * j.val + r.val := rfl

variable (q k v : SQ.Idx → EReal) (W U : SW.Idx → EReal)

/-- tanh of the two projections added. -/
def fac (b : Fin 8) (s : Fin 2048) (e : Fin 1024) : EReal :=
  Ideal.tanh ((∑ d : Fin 1024, k (ix3 b s d) * W (ix2 d e)) + ∑ d : Fin 1024, q (ix3 b s d) * U (ix2 d e))

/-- The score: v transposed times fac, per batch. -/
def score (b : Fin 8) (d e : Fin 1024) : EReal := ∑ s : Fin 2048, v (ix3 b s d) * fac q k W U b s e

/-- The part of the score that block j of the sequence contributes. -/
def blockTerm (b : Fin 8) (d e : Fin 1024) (j : Fin 8) : EReal :=
  ∑ r : Fin 256, v (ix3 b (row j r) d) * fac q k W U b (row j r) e

/-- The sum of the first n blocks' contributions. -/
def partialScore (b : Fin 8) (d e : Fin 1024) (n : ℕ) : EReal :=
  ∑ j ∈ Finset.univ.filter (fun j : Fin 8 => j.val < n), blockTerm q k v W U b d e j

theorem partialScore_zero (b : Fin 8) (d e : Fin 1024) : partialScore q k v W U b d e 0 = 0 := by
  unfold partialScore
  rw [Finset.filter_false_of_mem (fun j _ => Nat.not_lt_zero _), Finset.sum_empty]

theorem partialScore_succ (b : Fin 8) (d e : Fin 1024) (n : ℕ) (hn : n < 8) :
    partialScore q k v W U b d e (n + 1) = partialScore q k v W U b d e n + blockTerm q k v W U b d e ⟨n, hn⟩ := by
  unfold partialScore
  have hins : (Finset.univ.filter fun j : Fin 8 => j.val < n + 1)
      = insert (⟨n, hn⟩ : Fin 8) (Finset.univ.filter fun j : Fin 8 => j.val < n) := by
    ext j
    simp only [Finset.mem_filter, Finset.mem_univ, true_and, Finset.mem_insert, Fin.ext_iff]
    omega
  rw [hins, Finset.sum_insert (by simp), add_comm]

/-- A sum over the 2048 positions, block by block. -/
theorem sum_blocks {M : Type*} [AddCommMonoid M] (f : Fin 2048 → M) :
    ∑ s : Fin 2048, f s = ∑ j : Fin 8, ∑ r : Fin 256, f (row j r) := by
  have e := Equiv.sum_comp (finProdFinEquiv (m := 8) (n := 256)) (show Fin (8 * 256) → M from f)
  rw [Fintype.sum_prod_type] at e
  refine e.symm.trans ?_
  refine Finset.sum_congr rfl fun j _ => Finset.sum_congr rfl fun r _ => ?_
  refine congrArg f (Fin.ext ?_)
  show r.val + 256 * j.val = 256 * j.val + r.val
  omega

theorem partialScore_eight (b : Fin 8) (d e : Fin 1024) : partialScore q k v W U b d e 8 = score q k v W U b d e := by
  unfold partialScore score
  rw [Finset.filter_true_of_mem (fun j _ => j.isLt), sum_blocks]
  rfl

/-- The maximum of eight values, folded from −∞. -/
def colMax (x : Fin 8 → EReal) : EReal := (Finset.univ : Finset (Fin 8)).fold max (Ideal.ofBits .f32 0xFF800000#32) x

/-- The softmax of eight values at position b. -/
def soft (x : Fin 8 → EReal) (b : Fin 8) : EReal :=
  Ideal.div (Ideal.exp (x b - colMax x)) (∑ b' : Fin 8, Ideal.exp (x b' - colMax x))

/-- The three stages as whole arrays. -/
def scoreArr : SS.Idx → EReal := fun i => score q k v W U (i 0) (i 1) (i 2)

def softArr (s : SS.Idx → EReal) : SS.Idx → EReal := fun i => soft (fun b => s (ix3 b (i 1) (i 2))) (i 0)

def outArr (v : SQ.Idx → EReal) (a : SS.Idx → EReal) : SQ.Idx → EReal :=
  fun i => ∑ d : Fin 1024, v (ix3 (i 0) (i 1) d) * a (ix3 (i 0) d (i 2))

/-- The whole function. -/
def attn : SQ.Idx → EReal := outArr v (softArr (scoreArr q k v W U))

end BatchAttn

end
-- ==== Proof.Region0.lean ====
/-
  Region 0: after its 64 grid points the score array holds score(b, d, e) = Σ_s v(b,s,d) · fac(b,s,e).

  Point t works on batch b = t / 8 and sequence block j = t % 8; its q, k, v blocks are rows 256·j … 256·j + 255 of
  batch b, its weight blocks the whole matrices. By the two piece lemmas and the entrywise reading of the body, the
  output block after point t holds, at (0, d, e), the sum of the contributions of sequence blocks 0 … j of batch b
  (induction on the point: block 0 starts from the zero block, every later block adds to what the point before left,
  the block staying in place between them). The block is written back after sequence block 7, when that partial sum is
  the whole sum over the 2048 positions; the eight write-backs cover the array.
-/
import proofs.«172361_j49082886259369_2_alg».proof.Proof.R0Pieces
import proofs.«172361_j49082886259369_2_alg».proof.Proof.R0Payload
import proofs.«172361_j49082886259369_2_alg».proof.Proof.Spec

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

theorem r0_N (t : Fin cfg0.N) : t.val < 64 := lt_of_lt_of_eq t.isLt (show cfg0.N = 64 from N_0)

/-- The batch and the sequence block of a grid point. -/
def r0_b (t : Fin cfg0.N) : Fin 8 := ⟨t.val / 8, by have := r0_N t; omega⟩
def r0_j (t : Fin cfg0.N) : Fin 8 := ⟨t.val % 8, Nat.mod_lt _ (by decide)⟩

/-- The printed index maps, decided over the grid. -/
theorem r0_idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem r0_idx1 : ∀ t : Fin cfg0.N, win0_1.index t (0 : Fin 3) = t.val / 8 ∧ win0_1.index t (1 : Fin 3) = t.val % 8 ∧ win0_1.index t (2 : Fin 3) = 0 :=
  (by decide +kernel : ∀ t : Fin grid0.N, _)
theorem r0_idx2 : ∀ t : Fin cfg0.N, win0_2.index t (0 : Fin 3) = t.val / 8 ∧ win0_2.index t (1 : Fin 3) = t.val % 8 ∧ win0_2.index t (2 : Fin 3) = 0 :=
  (by decide +kernel : ∀ t : Fin grid0.N, _)
theorem r0_idx3 : ∀ t : Fin cfg0.N, win0_3.index t (0 : Fin 2) = 0 ∧ win0_3.index t (1 : Fin 2) = 0 :=
  (by decide +kernel : ∀ t : Fin grid0.N, _)
theorem r0_idx4 : ∀ t : Fin cfg0.N, win0_4.index t (0 : Fin 2) = 0 ∧ win0_4.index t (1 : Fin 2) = 0 :=
  (by decide +kernel : ∀ t : Fin grid0.N, _)
theorem r0_idx5 : ∀ t : Fin cfg0.N, win0_5.index t (0 : Fin 3) = t.val / 8 ∧ win0_5.index t (1 : Fin 3) = 0 ∧ win0_5.index t (2 : Fin 3) = 0 :=
  (by decide +kernel : ∀ t : Fin grid0.N, _)

variable (V : (c : Dev nD) → (b : Ref sig .tc) → Buf (Elt Ideal) ((c : Thread nD τ).loc b))

/-- An entry of the point's q block is the array's entry in batch t/8, at row r of sequence block t%8. -/
theorem r0_blk_q (c : Dev nD) (t : Fin cfg0.N) (r : Fin 256) (d : Fin 1024) :
    iblk0 V c 0 t (ix3 (0 : Fin 1) r d) = V c main_arg0 (ix3 (r0_b t) (BatchAttn.row (r0_j t) r) d) := by
  obtain ⟨e0, e1, e2⟩ := r0_idx0 t
  show V c main_arg0 (((cfg0.win 0).blk t).view.emb (ix3 (0 : Fin 1) r d)) = _
  refine congrArg (V c main_arg0) (funext fun a => Fin.ext ?_)
  match a with
  | ⟨0, _⟩ => show win0_0.index t (0 : Fin 3) * 1 + 1 * 0 = t.val / 8; omega
  | ⟨1, _⟩ => show win0_0.index t (1 : Fin 3) * 256 + 1 * r.val = 256 * (t.val % 8) + r.val; omega
  | ⟨2, _⟩ => show win0_0.index t (2 : Fin 3) * 1024 + 1 * d.val = d.val; omega

/-- An entry of the point's k block is the array's entry in batch t/8, at row r of sequence block t%8. -/
theorem r0_blk_k (c : Dev nD) (t : Fin cfg0.N) (r : Fin 256) (d : Fin 1024) :
    iblk0 V c 1 t (ix3 (0 : Fin 1) r d) = V c main_arg1 (ix3 (r0_b t) (BatchAttn.row (r0_j t) r) d) := by
  obtain ⟨e0, e1, e2⟩ := r0_idx1 t
  show V c main_arg1 (((cfg0.win 1).blk t).view.emb (ix3 (0 : Fin 1) r d)) = _
  refine congrArg (V c main_arg1) (funext fun a => Fin.ext ?_)
  match a with
  | ⟨0, _⟩ => show win0_1.index t (0 : Fin 3) * 1 + 1 * 0 = t.val / 8; omega
  | ⟨1, _⟩ => show win0_1.index t (1 : Fin 3) * 256 + 1 * r.val = 256 * (t.val % 8) + r.val; omega
  | ⟨2, _⟩ => show win0_1.index t (2 : Fin 3) * 1024 + 1 * d.val = d.val; omega

/-- An entry of the point's v block is the array's entry in batch t/8, at row r of sequence block t%8. -/
theorem r0_blk_v (c : Dev nD) (t : Fin cfg0.N) (r : Fin 256) (d : Fin 1024) :
    iblk0 V c 2 t (ix3 (0 : Fin 1) r d) = V c main_arg2 (ix3 (r0_b t) (BatchAttn.row (r0_j t) r) d) := by
  obtain ⟨e0, e1, e2⟩ := r0_idx2 t
  show V c main_arg2 (((cfg0.win 2).blk t).view.emb (ix3 (0 : Fin 1) r d)) = _
  refine congrArg (V c main_arg2) (funext fun a => Fin.ext ?_)
  match a with
  | ⟨0, _⟩ => show win0_2.index t (0 : Fin 3) * 1 + 1 * 0 = t.val / 8; omega
  | ⟨1, _⟩ => show win0_2.index t (1 : Fin 3) * 256 + 1 * r.val = 256 * (t.val % 8) + r.val; omega
  | ⟨2, _⟩ => show win0_2.index t (2 : Fin 3) * 1024 + 1 * d.val = d.val; omega

/-- The W block is the whole matrix at every point. -/
theorem r0_blk_W (c : Dev nD) (t : Fin cfg0.N) (d e : Fin 1024) :
    iblk0 V c 3 t (ix2 d e) = V c main_arg3 (ix2 d e) := by
  obtain ⟨e0, e1⟩ := r0_idx3 t
  show V c main_arg3 (((cfg0.win 3).blk t).view.emb (ix2 d e)) = _
  refine congrArg (V c main_arg3) (funext fun a => Fin.ext ?_)
  match a with
  | ⟨0, _⟩ => show win0_3.index t (0 : Fin 2) * 1024 + 1 * d.val = d.val; omega
  | ⟨1, _⟩ => show win0_3.index t (1 : Fin 2) * 1024 + 1 * e.val = e.val; omega

/-- The U block is the whole matrix at every point. -/
theorem r0_blk_U (c : Dev nD) (t : Fin cfg0.N) (d e : Fin 1024) :
    iblk0 V c 4 t (ix2 d e) = V c main_arg4 (ix2 d e) := by
  obtain ⟨e0, e1⟩ := r0_idx4 t
  show V c main_arg4 (((cfg0.win 4).blk t).view.emb (ix2 d e)) = _
  refine congrArg (V c main_arg4) (funext fun a => Fin.ext ?_)
  match a with
  | ⟨0, _⟩ => show win0_4.index t (0 : Fin 2) * 1024 + 1 * d.val = d.val; omega
  | ⟨1, _⟩ => show win0_4.index t (1 : Fin 2) * 1024 + 1 * e.val = e.val; omega

/-- What a point adds at (0, d, e) is its sequence block's part of the score of its batch. -/
theorem r0_contrib (c : Dev nD) (t : Fin cfg0.N) (d e : Fin 1024)
    (x0 x1 x2 : Vec Ideal S1x256x1024 .f32) (x3 x4 : Vec Ideal S1024x1024 .f32)
    (h0 : x0 = iblk0 V c 0 t) (h1 : x1 = iblk0 V c 1 t) (h2 : x2 = iblk0 V c 2 t) (h3 : x3 = iblk0 V c 3 t) (h4 : x4 = iblk0 V c 4 t) :
    (∑ r : Fin 256, x2 (ix3 (0 : Fin 1) r d)
        * Ideal.tanh ((∑ d' : Fin 1024, x1 (ix3 (0 : Fin 1) r d') * x3 (ix2 d' e))
            + ∑ d' : Fin 1024, x0 (ix3 (0 : Fin 1) r d') * x4 (ix2 d' e)))
      = BatchAttn.blockTerm (V c main_arg0) (V c main_arg1) (V c main_arg2) (V c main_arg3) (V c main_arg4) (r0_b t) d e (r0_j t) := by
  subst h0 h1 h2 h3 h4
  unfold BatchAttn.blockTerm BatchAttn.fac
  refine Finset.sum_congr rfl fun r _ => congrArg₂ (· * ·) (r0_blk_v V c t r d) (congrArg Ideal.tanh (congrArg₂ (· + ·) ?_ ?_))
  · exact Finset.sum_congr rfl fun d' _ => congrArg₂ (· * ·) (r0_blk_k V c t r d') (r0_blk_W V c t d' e)
  · exact Finset.sum_congr rfl fun d' _ => congrArg₂ (· * ·) (r0_blk_q V c t r d') (r0_blk_U V c t d' e)

/-- After point n the output block holds the partial score over sequence blocks 0 … n % 8 of batch n / 8. -/
theorem r0_outsAt (c : Dev nD) : ∀ (n : ℕ) (h : n < cfg0.N) (u : Fin 1) (d e : Fin 1024),
    outsAt0 (F := Ideal) V c n h (ix3 u d e)
      = BatchAttn.partialScore (V c main_arg0) (V c main_arg1) (V c main_arg2) (V c main_arg3) (V c main_arg4) (r0_b ⟨n, h⟩) d e (n % 8 + 1)
  | 0, h, u, d, e => by
    refine (congrFun (outsAt0_A V c ⟨0, h⟩ rfl) (ix3 u d e)).trans ?_
    refine (congrFun (r0_out_A (0 : Dev nD) (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl) (iblk0 V c 0 ⟨0, h⟩) (iblk0 V c 1 ⟨0, h⟩) (iblk0 V c 2 ⟨0, h⟩) (iblk0 V c 3 ⟨0, h⟩) (iblk0 V c 4 ⟨0, h⟩)) (ix3 u d e)).trans ?_
    refine (r0_pay2_apply (iblk0 V c 0 ⟨0, h⟩) (iblk0 V c 1 ⟨0, h⟩) (iblk0 V c 2 ⟨0, h⟩) (iblk0 V c 3 ⟨0, h⟩) (iblk0 V c 4 ⟨0, h⟩) (k0_pay1 (F := Ideal)) u d e).trans ?_
    rw [r0_pay1_apply, zero_add, r0_contrib V c ⟨0, h⟩ d e (iblk0 V c 0 ⟨0, h⟩) (iblk0 V c 1 ⟨0, h⟩) (iblk0 V c 2 ⟨0, h⟩) (iblk0 V c 3 ⟨0, h⟩) (iblk0 V c 4 ⟨0, h⟩) rfl rfl rfl rfl rfl]
    show _ = BatchAttn.partialScore (V c main_arg0) (V c main_arg1) (V c main_arg2) (V c main_arg3) (V c main_arg4) (r0_b ⟨0, h⟩) d e (0 + 1)
    rw [BatchAttn.partialScore_succ _ _ _ _ _ _ _ _ 0 (by decide), BatchAttn.partialScore_zero, zero_add]
    rfl
  | n + 1, h, u, d, e => by
    have hN : n + 1 < 64 := r0_N ⟨n + 1, h⟩
    by_cases h0 : (n + 1) % 8 = 0
    · refine (congrFun (outsAt0_A V c ⟨n + 1, h⟩ h0) (ix3 u d e)).trans ?_
      refine (congrFun (r0_out_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) ((hcond0_0 ⟨n + 1, h⟩).mpr h0) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩)) (ix3 u d e)).trans ?_
      refine (r0_pay2_apply (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (k0_pay1 (F := Ideal)) u d e).trans ?_
      rw [r0_pay1_apply, zero_add, r0_contrib V c ⟨n + 1, h⟩ d e (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) rfl rfl rfl rfl rfl, h0]
      show _ = BatchAttn.partialScore (V c main_arg0) (V c main_arg1) (V c main_arg2) (V c main_arg3) (V c main_arg4) (r0_b ⟨n + 1, h⟩) d e (0 + 1)
      rw [BatchAttn.partialScore_succ _ _ _ _ _ _ _ _ 0 (by decide), BatchAttn.partialScore_zero, zero_add]
      exact congrArg _ (Fin.ext h0)
    · have h' : n < cfg0.N := Nat.lt_of_succ_lt h
      refine (congrFun (outsAt0_B V c ⟨n + 1, h⟩ h0) (ix3 u d e)).trans ?_
      refine (congrFun (r0_out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => h0 ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (outsAt0 V c n h')) (ix3 u d e)).trans ?_
      refine (r0_pay2_apply (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (outsAt0 V c n h') u d e).trans ?_
      rw [r0_outsAt c n h' 0 d e, r0_contrib V c ⟨n + 1, h⟩ d e (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) rfl rfl rfl rfl rfl]
      have hb : r0_b ⟨n, h'⟩ = r0_b ⟨n + 1, h⟩ := Fin.ext (by show n / 8 = (n + 1) / 8; omega)
      have hm : (n + 1) % 8 + 1 = (n % 8 + 1) + 1 := by omega
      have hlt : n % 8 + 1 < 8 := by omega
      rw [hb, hm, BatchAttn.partialScore_succ _ _ _ _ _ _ _ _ (n % 8 + 1) hlt]
      exact congrArg _ (congrArg _ (Fin.ext (by show (n + 1) % 8 = n % 8 + 1; omega)))

/-- An index of the score array lies in point t's output block iff each coordinate lies in the block's range. -/
theorem r0_mem_blk (t : Fin cfg0.N) (i : S8x1024x1024.Idx) :
    i ∈ ((cfg0.win 5).blk t).view.set ↔ ∀ a : Fin 3, win0_5.index t a * S1x1024x1024.size a ≤ (i a).val
      ∧ (i a).val < win0_5.index t a * S1x1024x1024.size a + S1x1024x1024.size a := by
  show i ∈ ((View.whole main_v0).slice (win0_5.rect t)).set ↔ _
  rw [View.set_slice_whole, Rect.mem_set_unit]
  exact Iff.rfl

/-- What a write-back writes is the block of the score array. -/
theorem r0_flushed (c : Dev nD) (t : Fin cfg0.N) (hf : (cfg0.win 5).flush t = true) :
    (dat0 (F := Ideal) V c).flushed 5 t
      = ((cfg0.win 5).blk t).view.read (Elt Ideal) (BatchAttn.scoreArr (V c main_arg0) (V c main_arg1) (V c main_arg2) (V c main_arg3) (V c main_arg4)) := by
  have h7 : t.val % 8 = 7 := (flush0_5 t).mp hf
  obtain ⟨e0, e1, e2⟩ := r0_idx5 t
  show (cfg0.win 5).cut (grid0.coords t) ((dat0 (F := Ideal) V c).after 5 t) = _
  rw [after0_5]
  funext y
  obtain ⟨u, d, e, rfl⟩ : ∃ (u : Fin 1) (d e : Fin 1024), y = ix3 u d e :=
    ⟨y 0, y 1, y 2, eq_ix3 (n0 := 1) (n1 := 1024) (n2 := 1024) y⟩
  show outsAt0 (F := Ideal) V c t.val t.isLt (ix3 u d e)
    = BatchAttn.scoreArr (V c main_arg0) (V c main_arg1) (V c main_arg2) (V c main_arg3) (V c main_arg4) (((cfg0.win 5).blk t).view.emb (ix3 u d e))
  rw [r0_outsAt V c t.val t.isLt u d e, h7]
  show BatchAttn.partialScore (V c main_arg0) (V c main_arg1) (V c main_arg2) (V c main_arg3) (V c main_arg4) (r0_b t) d e 8 = _
  rw [BatchAttn.partialScore_eight]
  unfold BatchAttn.scoreArr
  have hu : u.val = 0 := by omega
  have hb : r0_b t = (((cfg0.win 5).blk t).view.emb (ix3 u d e) 0 : Fin 8) :=
    Fin.ext (by show t.val / 8 = win0_5.index t (0 : Fin 3) * 1 + 1 * u.val; omega)
  have hd : d = (((cfg0.win 5).blk t).view.emb (ix3 u d e) 1 : Fin 1024) :=
    Fin.ext (by show d.val = win0_5.index t (1 : Fin 3) * 1024 + 1 * d.val; omega)
  have he : e = (((cfg0.win 5).blk t).view.emb (ix3 u d e) 2 : Fin 1024) :=
    Fin.ext (by show e.val = win0_5.index t (2 : Fin 3) * 1024 + 1 * e.val; omega)
  exact congr (congr (congrArg (BatchAttn.score (V c main_arg0) (V c main_arg1) (V c main_arg2) (V c main_arg3) (V c main_arg4)) hb) hd) he

/-- The score array after the region. -/
theorem score_final (c : Dev nD) :
    (dat0 (F := Ideal) V c).arrAt 5 cfg0.N = BatchAttn.scoreArr (V c main_arg0) (V c main_arg1) (V c main_arg2) (V c main_arg3) (V c main_arg4) :=
  (dat0 (F := Ideal) V c).arrAt_eq_of_cover 5 (BatchAttn.scoreArr (V c main_arg0) (V c main_arg1) (V c main_arg2) (V c main_arg3) (V c main_arg4)) (fun t hf => r0_flushed V c t hf) fun i => by
    have hi0 : (i 0).val < 8 := (i 0).isLt
    have hi1 : (i 1).val < 1024 := (i 1).isLt
    have hi2 : (i 2).val < 1024 := (i 2).isLt
    have hlt : 8 * (i 0).val + 7 < cfg0.N := by rw [show cfg0.N = 64 from N_0]; omega
    obtain ⟨e0, e1, e2⟩ := r0_idx5 ⟨8 * (i 0).val + 7, hlt⟩
    refine ⟨⟨8 * (i 0).val + 7, hlt⟩, (flush0_5 _).mpr (by show (8 * (i 0).val + 7) % 8 = 7; omega), ?_⟩
    rw [r0_mem_blk]
    intro a
    match a with
    | ⟨0, _⟩ =>
      show win0_5.index ⟨8 * (i 0).val + 7, hlt⟩ (0 : Fin 3) * 1 ≤ (i 0).val ∧ (i 0).val < win0_5.index ⟨8 * (i 0).val + 7, hlt⟩ (0 : Fin 3) * 1 + 1
      have : (8 * (i 0).val + 7) / 8 = (i 0).val := by omega
      dsimp only at e0
      omega
    | ⟨1, _⟩ =>
      show win0_5.index ⟨8 * (i 0).val + 7, hlt⟩ (1 : Fin 3) * 1024 ≤ (i 1).val ∧ (i 1).val < win0_5.index ⟨8 * (i 0).val + 7, hlt⟩ (1 : Fin 3) * 1024 + 1024
      omega
    | ⟨2, _⟩ =>
      show win0_5.index ⟨8 * (i 0).val + 7, hlt⟩ (2 : Fin 3) * 1024 ≤ (i 2).val ∧ (i 2).val < win0_5.index ⟨8 * (i 0).val + 7, hlt⟩ (2 : Fin 3) * 1024 + 1024
      omega

end Cert.KernelIdeal.Hand

end
-- ==== Proof.Region1.lean ====
/-
  Region 1: the softmax over the leading (batch) axis, cast to the narrower format.

  The region walks the [8, 1024, 1024] input array in eight blocks of 128 consecutive rows (block index (0, t, 0) at
  point t), and at each point stores, for the block X it has read, the array
      (b, r, l) ↦ exp (X(b,r,l) − M(r,l)) / Σ_b' exp (X(b',r,l) − M(r,l)),   M(r,l) = max_b X(b,r,l),
  into the same block of the output array. Read at an index, the maximum over the leading axis is the fold of max
  from −∞ over the eight leading coordinates, the sum the sum over them, and a [128, 1024] value given a leading unit axis and
  repeated eight times along it reads its value at (r, l) — so the payload at (b, r, l) is the softmax of the eight
  values X(·, r, l) at b. A block's element (b, r, l) sits in the array at (b, t·128 + r, l), for the input and the
  output alike, so what point t writes back is block t of the softmax array of the input array; the eight blocks
  cover the array (row d lies in block d / 128), so the output array ends as that softmax array.
-/
import proofs.«172361_j49082886259369_2_alg».proof.Proof.Gen.KernelIdeal.Frame
import proofs.«172361_j49082886259369_2_alg».proof.Proof.Spec
import Idealize.ShloMosaic.Lib.Pipeline.Value

noncomputable section
namespace Cert.KernelIdeal.Hand
open Idealize.ShloMosaic Idealize.ShloMosaic.TcCoe Idealize.SL.Sem Idealize.ShloMosaic.ValueIdx
open Idealize.ShloMosaic.Pipeline (Dat)
open Cert.KernelIdeal Cert.KernelIdeal.Gen

/-! ## The payload at an index -/

/-- Putting the leading coordinate k back into the index (r, l) of the reduced shape gives (k, r, l). -/
theorem r1_lift (h : S8x128x1024.Reduces [0] S128x1024) (r : Fin 128) (l : Fin 1024) (k : Fin 8) :
    h.lift (ix2 r l) k = ix3 k r l := by
  funext a
  match a with
  | ⟨0, _⟩ => exact Fin.ext rfl
  | ⟨1, _⟩ => exact Fin.ext rfl
  | ⟨2, _⟩ => exact Fin.ext rfl

/-- The maximum over the leading axis, read at (r, l): the fold of max from −∞ over the eight leading coordinates. -/
theorem r1_max_apply (x : FVec Ideal S8x128x1024 .f32) (h : S8x128x1024.Reduces [0] S128x1024) (hφ : FKind.Formats .f32)
    (hacc : (0xFF800000#32 : BitVec 32) = 0xFF800000#32) (r : Fin 128) (l : Fin 1024) :
    multiReduction .maximumf [0] S128x1024 x 0xFF800000#32 h hφ hacc (ix2 r l)
      = BatchAttn.colMax (fun b => x (ix3 b r l)) := by
  refine (Ideal.multiReduction_maximumf_single x _ h hφ hacc (ix2 r l)).trans ?_
  have e : x ∘ h.lift (ix2 r l) = fun b : Fin 8 => x (ix3 b r l) := funext fun k => congrArg x (r1_lift h r l k)
  rw [e]
  rfl

/-- The sum over the leading axis, read at (r, l). -/
theorem r1_sum_apply (x : FVec Ideal S8x128x1024 .f32) (h : S8x128x1024.Reduces [0] S128x1024) (hφ : FKind.Formats .f32)
    (hacc : (0x00000000#32 : BitVec 32) = 0x00000000#32) (r : Fin 128) (l : Fin 1024) :
    multiReduction .add [0] S128x1024 x 0x00000000#32 h hφ hacc (ix2 r l)
      = ∑ b : Fin 8, x (ix3 b r l) := by
  refine (Ideal.multiReduction_add_single x _ h hφ hacc (ix2 r l)).trans ?_
  exact Finset.sum_congr rfl fun k _ => congrArg x (r1_lift h r l k)

/-- A [128,1024] value given a leading unit axis and repeated along it eight times reads, at (b, r, l), the value at (r, l). -/
theorem r1_bcast_apply {α : Type} (v : S128x1024.Idx → α) (hc : S128x1024.ShapeCasts S1x128x1024)
    (hb : S1x128x1024.Broadcasts S8x128x1024) (b : Fin 8) (r : Fin 128) (l : Fin 1024) :
    broadcastTo S8x128x1024 (shapeCast S1x128x1024 v hc) hb (ix3 b r l) = v (ix2 r l) := by
  refine (broadcastTo_apply _ hb (ix3 b r l) (ix3 (0 : Fin 1) r l) (fun a => ?_)).trans ?_
  · match a with
    | ⟨0, _⟩ => rfl
    | ⟨1, _⟩ => rfl
    | ⟨2, _⟩ => rfl
  · refine (shapeCast_addUnit_apply ![128, 1024] v hc (ix3 (0 : Fin 1) r l)).trans ?_
    refine congrArg v (funext fun a => ?_)
    match a with
    | ⟨0, _⟩ => rfl
    | ⟨1, _⟩ => rfl

/-- The exponential of a difference, read at an index. -/
theorem r1_exp_sub_apply (x M : FVec Ideal S8x128x1024 .f32) (i : S8x128x1024.Idx) :
    exp (subf x M) i = Ideal.exp (x i - M i) := rfl

/-- The softmax over the leading axis as the body computes it — subtract the repeated maximum, exponentiate, divide by the
    repeated sum, narrow the format — read at (b, r, l). -/
theorem r1_soft_apply (x : FVec Ideal S8x128x1024 .f32) (hr : S8x128x1024.Reduces [0] S128x1024) (hφ : FKind.Formats .f32)
    (hm : (0xFF800000#32 : BitVec 32) = 0xFF800000#32) (hz : (0x00000000#32 : BitVec 32) = 0x00000000#32)
    (hc : S128x1024.ShapeCasts S1x128x1024) (hb : S1x128x1024.Broadcasts S8x128x1024) (hlt : FTy.bf16.bits < FTy.f32.bits)
    (b : Fin 8) (r : Fin 128) (l : Fin 1024) :
    truncf .bf16
      (divf
        (exp (subf x (broadcastTo S8x128x1024 (shapeCast S1x128x1024
          (multiReduction .maximumf [0] S128x1024 x 0xFF800000#32 hr hφ hm) hc) hb)))
        (broadcastTo S8x128x1024 (shapeCast S1x128x1024
          (multiReduction .add [0] S128x1024
            (exp (subf x (broadcastTo S8x128x1024 (shapeCast S1x128x1024
              (multiReduction .maximumf [0] S128x1024 x 0xFF800000#32 hr hφ hm) hc) hb)))
            0x00000000#32 hr hφ hz) hc) hb))
      hlt (ix3 b r l)
      = BatchAttn.soft (fun b' => x (ix3 b' r l)) b := by
  have hE : ∀ b' : Fin 8,
      exp (subf x (broadcastTo S8x128x1024 (shapeCast S1x128x1024
          (multiReduction .maximumf [0] S128x1024 x 0xFF800000#32 hr hφ hm) hc) hb)) (ix3 b' r l)
        = Ideal.exp (x (ix3 b' r l) - BatchAttn.colMax (fun b'' => x (ix3 b'' r l))) := by
    intro b'
    rw [r1_exp_sub_apply, r1_bcast_apply, r1_max_apply]
  rw [truncf_apply, divf_apply, r1_bcast_apply, r1_sum_apply]
  simp only [hE]
  rfl

/-- The body's payload at (b, r, l): the softmax, over the leading axis, of the eight values the block holds at (·, r, l). -/
theorem r1_pay (x : Vec Ideal S8x128x1024 .f32) (b : Fin 8) (r : Fin 128) (l : Fin 1024) :
    k1_pay1 (F := Ideal) x (ix3 b r l) = BatchAttn.soft (fun b' => x (ix3 b' r l)) b := by
  unfold k1_pay1
  simp only [shapeCast_self]
  exact r1_soft_apply x _ _ _ _ _ _ _ b r l

variable (V : (c : Dev nD) → (b : Ref sig .tc) → Buf (Elt Ideal) ((c : Thread nD τ).loc b))

/-! ## From blocks to the array -/

/-- The zero offsets as a constant function. -/
theorem r1_hz : (![0, 0, 0] : Fin 3 → Nat) = fun _ => 0 := funext fun a => by fin_cases a <;> rfl

/-- A block of softmax values from a block of the array: if the block X holds rows n·128 … n·128 + 127 of A, the payload
    of X at (b, r, l) is the softmax array of A at (b, n·128 + r, l). -/
theorem r1_blk_point (A : BatchAttn.SS.Idx → EReal) (X : Vec Ideal S8x128x1024 .f32) (n : Nat) (hn : n < 8)
    (hX : ∀ (b : Fin 8) (r : Fin 128) (l : Fin 1024),
      X (ix3 b r l) = A (ix3 b (⟨n * 128 + r.val, by have := r.isLt; omega⟩ : Fin 1024) l))
    (b : Fin 8) (r : Fin 128) (l : Fin 1024) :
    k1_pay1 (F := Ideal) X (ix3 b r l)
      = BatchAttn.softArr A (ix3 b (⟨n * 128 + r.val, by have := r.isLt; omega⟩ : Fin 1024) l) := by
  rw [r1_pay]
  show BatchAttn.soft (fun b' => X (ix3 b' r l)) b
    = BatchAttn.soft (fun b' => A (ix3 b' (⟨n * 128 + r.val, by have := r.isLt; omega⟩ : Fin 1024) l)) b
  simp only [hX]

/-- The two windows' index maps, decided over the eight points: at point t both block indices are (0, t, 0). -/
theorem r1_idx_facts : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = t.val ∧ win1_1.index t (2 : Fin 3) = 0 :=
  (by decide +kernel : ∀ t : Fin grid1.N, _)

/-- What point t writes back is block t of the softmax array of the input array as the region finds it. -/
theorem r1_flushed_eq (c : Dev nD) (t : Fin cfg1.N) :
    (dat1 (F := Ideal) V c).flushed 1 t
      = ((cfg1.win 1).blk t).view.read (Elt Ideal) (BatchAttn.softArr (V c main_v0)) := by
  show (cfg1.win 1).cut (grid1.coords t) ((dat1 V c).after 1 t) = _
  rw [after1_1]
  unfold out1_1
  rw [View.canon_unit_zero r1_hz]
  simp only [View.ld_unit_zero (S := S8x128x1024) r1_hz]
  obtain ⟨e0, e1, e2, e3, e4, e5⟩ := r1_idx_facts t
  have ht : t.val < 8 := Nat.lt_of_lt_of_eq t.isLt N_1
  have hX : ∀ (b : Fin 8) (r : Fin 128) (l : Fin 1024),
      (iblk1 V c 0 t : Vec Ideal S8x128x1024 .f32) (ix3 b r l)
        = (V c main_v0 : BatchAttn.SS.Idx → EReal) (ix3 b (⟨t.val * 128 + r.val, by have := r.isLt; omega⟩ : Fin 1024) l) := by
    intro b r l
    show V c main_v0 (((cfg1.win 0).blk t).view.emb (ix3 b r l)) = V c main_v0 _
    refine congrArg _ (funext fun a => Fin.ext ?_)
    match a with
    | ⟨0, _⟩ => show win1_0.index t (0 : Fin 3) * 8 + 1 * b.val = b.val; omega
    | ⟨1, _⟩ => show win1_0.index t (1 : Fin 3) * 128 + 1 * r.val = t.val * 128 + r.val; omega
    | ⟨2, _⟩ => show win1_0.index t (2 : Fin 3) * 1024 + 1 * l.val = l.val; omega
  funext j
  have hj0 : (j 0).val < 8 := (j 0).isLt
  have hj1 : (j 1).val < 128 := (j 1).isLt
  have hj2 : (j 2).val < 1024 := (j 2).isLt
  have q1 : (cfg1.win 1).xinj (grid1.coords t) j
      = (ix3 (⟨(j 0).val, hj0⟩ : Fin 8) (⟨(j 1).val, hj1⟩ : Fin 128) (⟨(j 2).val, hj2⟩ : Fin 1024) : S8x128x1024.Idx) := by
    funext a
    match a with
    | ⟨0, _⟩ => exact Fin.ext rfl
    | ⟨1, _⟩ => exact Fin.ext rfl
    | ⟨2, _⟩ => exact Fin.ext rfl
  have q2 : ((cfg1.win 1).blk t).view.emb j
      = (ix3 (⟨(j 0).val, hj0⟩ : Fin 8) (⟨t.val * 128 + (j 1).val, by omega⟩ : Fin 1024) (⟨(j 2).val, hj2⟩ : Fin 1024) : BatchAttn.SS.Idx) := by
    funext a
    apply Fin.ext
    match a with
    | ⟨0, _⟩ => show win1_1.index t (0 : Fin 3) * 8 + 1 * (j 0).val = (j 0).val; omega
    | ⟨1, _⟩ => show win1_1.index t (1 : Fin 3) * 128 + 1 * (j 1).val = t.val * 128 + (j 1).val; omega
    | ⟨2, _⟩ => show win1_1.index t (2 : Fin 3) * 1024 + 1 * (j 2).val = (j 2).val; omega
  show k1_pay1 (F := Ideal) (iblk1 V c 0 t) ((cfg1.win 1).xinj (grid1.coords t) j)
    = BatchAttn.softArr (V c main_v0) (((cfg1.win 1).blk t).view.emb j)
  refine (congrArg (k1_pay1 (F := Ideal) (iblk1 V c 0 t)) q1).trans ?_
  refine Eq.trans ?_ (congrArg (BatchAttn.softArr (V c main_v0)) q2).symm
  exact r1_blk_point (V c main_v0) (iblk1 V c 0 t) t.val ht hX _ _ _

/-- An index of the array is in point t's block iff each coordinate is in the block's range on its axis. -/
theorem r1_mem_blk (t : Fin cfg1.N) (i : S8x1024x1024.Idx) :
    i ∈ ((cfg1.win 1).blk t).view.set ↔ ∀ a : Fin 3, win1_1.index t a * S8x128x1024.size a ≤ (i a).val
      ∧ (i a).val < win1_1.index t a * S8x128x1024.size a + S8x128x1024.size a := by
  show i ∈ ((View.whole main_v1).slice (win1_1.rect t)).set ↔ _
  rw [View.set_slice_whole, Rect.mem_set_unit]
  exact Iff.rfl

/-- The eight blocks of 128 rows cover the array: row d is in the block of point d / 128. -/
theorem r1_cover (i : S8x1024x1024.Idx) :
    ∃ t : Fin cfg1.N, (cfg1.win 1).flush t = true ∧ i ∈ ((cfg1.win 1).blk t).view.set := by
  have hi0 : (i 0).val < 8 := (i 0).isLt
  have hi1 : (i 1).val < 1024 := (i 1).isLt
  have hi2 : (i 2).val < 1024 := (i 2).isLt
  have hlt : (i 1).val / 128 < cfg1.N := Nat.lt_of_lt_of_eq (by omega : (i 1).val / 128 < 8) N_1.symm
  refine ⟨⟨(i 1).val / 128, hlt⟩, flush1_1 _, ?_⟩
  rw [r1_mem_blk]
  obtain ⟨-, -, -, e3, e4, e5⟩ := r1_idx_facts ⟨(i 1).val / 128, hlt⟩
  have e4' : win1_1.index ⟨(i 1).val / 128, hlt⟩ (1 : Fin 3) = (i 1).val / 128 := e4
  intro a
  match a with
  | ⟨0, _⟩ =>
    show win1_1.index _ (0 : Fin 3) * 8 ≤ (i 0).val ∧ (i 0).val < win1_1.index _ (0 : Fin 3) * 8 + 8
    omega
  | ⟨1, _⟩ =>
    show win1_1.index _ (1 : Fin 3) * 128 ≤ (i 1).val ∧ (i 1).val < win1_1.index _ (1 : Fin 3) * 128 + 128
    omega
  | ⟨2, _⟩ =>
    show win1_1.index _ (2 : Fin 3) * 1024 ≤ (i 2).val ∧ (i 2).val < win1_1.index _ (2 : Fin 3) * 1024 + 1024
    omega

/-- The output array after the region: the softmax, over the leading axis, of the input array as the region finds it. -/
theorem soft_final (c : Dev nD) :
    (dat1 (F := Ideal) V c).arrAt 1 cfg1.N = BatchAttn.softArr (V c main_v0) :=
  (dat1 V c).arrAt_eq_of_cover 1 (BatchAttn.softArr (V c main_v0)) (fun t _ => r1_flushed_eq V c t) r1_cover

end Cert.KernelIdeal.Hand
end
-- ==== Proof.Region2.lean ====
/-
  Region 2: the output projection, out(b, s, e) = Σ_d v(b,s,d) · a(b,d,e).

  The region walks the result array [8, 2048, 1024] in sixteen blocks of 1024 rows (point t is batch t / 2, half t % 2);
  at a point it multiplies the v block [1,1024,1024] at (b, half, 0) by the whole [1024,1024] weight matrix of batch b, into
  a zero accumulator: at row r and column e the sum over d of v_block(0,r,d) · a_block(0,d,e). The narrowing of v to the
  16-bit format is the identity on the extended reals and the reshapes only drop and add the unit leading axis. A
  block's entry (0, r, e) sits in the array at (b, 1024·half + r, e); every point writes its block back and the sixteen
  blocks cover the array.
-/
import proofs.«172361_j49082886259369_2_alg».proof.Proof.Gen.KernelIdeal.Frame
import proofs.«172361_j49082886259369_2_alg».proof.Proof.Spec
import Idealize.ShloMosaic.Lib.Pipeline.Value
import Idealize.ShloMosaic.Lib.ValueLayout

noncomputable section
namespace Cert.KernelIdeal.Hand
open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The contraction of the product has one axis, of extent 1024. -/
abbrev r2_D := dot_S1024x1024_S1024x1024_S1024x1024_1_0_0_1_n_n

/-- The product's payload at row `r`, column `e` of its one block: the row of the first operand against the column
    of the second (the format change is the identity on extended reals; the two casts only drop and add the unit axis). -/
theorem r2_pay (x0 : Vec Ideal S1x1024x1024 .f32) (x1 : Vec Ideal S1x1024x1024 .bf16) (u : Fin 1) (r e : Fin 1024) :
    k2_pay1 (F := Ideal) x0 x1 (ix3 u r e) = ∑ d : Fin 1024, x0 (ix3 (0 : Fin 1) r d) * x1 (ix3 (0 : Fin 1) d e) := by
  unfold k2_pay1
  refine (shapeCast_ab_1ab_apply _ _ u r e).trans ?_
  refine (Ideal.matmul_constant_zero_apply r2_D none _ _ (ix2 r e)).trans ?_
  rw [← Equiv.sum_comp (ValueIdx.contrEquiv1 r2_D 1024 rfl rfl).symm]
  refine Finset.sum_congr rfl fun k _ => ?_
  have hk := ValueIdx.contrEquiv1_symm_val r2_D 1024 rfl rfl k
  have el : r2_D.lhsIdx (ix2 r e) ((ValueIdx.contrEquiv1 r2_D 1024 rfl rfl).symm k) = ix2 r k := funext fun a => Fin.ext (by
    match a with
    | ⟨0, _⟩ => rfl
    | ⟨1, _⟩ => exact (r2_D.lhsIdx_val_of_single rfl _ _).trans hk)
  have er : r2_D.rhsIdx (ix2 r e) ((ValueIdx.contrEquiv1 r2_D 1024 rfl rfl).symm k) = ix2 k e := funext fun a => Fin.ext (by
    match a with
    | ⟨0, _⟩ => exact (r2_D.rhsIdx_val_of_single rfl _ _).trans hk
    | ⟨1, _⟩ => rfl)
  rw [el, er, truncf_apply, shapeCast_1ab_ab_apply, shapeCast_1ab_ab_apply]

theorem r2_hz : (![0, 0, 0] : Fin 3 → Nat) = fun _ => 0 := funext fun a => by fin_cases a <;> rfl

/-- The index maps over the sixteen points: the first operand's block moves with the result's, the second's
    follows only the batch, the last axis is never cut, and the point `t` is batch `t / 2`, half `t % 2`. -/
theorem r2_idx_facts : ∀ t : Fin cfg2.N,
    win2_0.index t (0 : Fin 3) = win2_2.index t (0 : Fin 3) ∧ win2_0.index t (1 : Fin 3) = win2_2.index t (1 : Fin 3)
    ∧ win2_0.index t (2 : Fin 3) = 0
    ∧ win2_1.index t (0 : Fin 3) = win2_2.index t (0 : Fin 3) ∧ win2_1.index t (1 : Fin 3) = 0 ∧ win2_1.index t (2 : Fin 3) = 0
    ∧ win2_2.index t (2 : Fin 3) = 0
    ∧ win2_2.index t (0 : Fin 3) = t.val / 2 ∧ win2_2.index t (1 : Fin 3) = t.val % 2 :=
  (by decide +kernel : ∀ t : Fin grid2.N, _)

/-- What point `t` writes back is its block of the product of the two arrays as the region finds them. -/
theorem r2_flushed_eq (c : Dev nD) (t : Fin cfg2.N) :
    (dat2 (F := Ideal) V c).flushed 2 t
      = ((cfg2.win 2).blk t).view.read (Elt Ideal) (BatchAttn.outArr (V c main_arg2) (V c main_v1)) := by
  show (cfg2.win 2).cut (grid2.coords t) ((dat2 (F := Ideal) V c).after 2 t) = _
  rw [after2_2]
  unfold out2_2
  rw [View.canon_unit_zero r2_hz]
  simp only [View.ld_unit_zero (S := S1x1024x1024) r2_hz]
  obtain ⟨e0, e1, e2, f0, f1, f2, g2, -, -⟩ := r2_idx_facts t
  funext j
  obtain ⟨u, r, e, rfl⟩ : ∃ (u : Fin 1) (r e : Fin 1024), j = ix3 u r e := ⟨j 0, j 1, j 2, eq_ix3 j⟩
  show k2_pay1 (F := Ideal) (iblk2 V c 0 t) (iblk2 V c 1 t) (ix3 u r e)
    = BatchAttn.outArr (V c main_arg2) (V c main_v1) (((cfg2.win 2).blk t).view.emb (ix3 u r e))
  refine (r2_pay (iblk2 V c 0 t) (iblk2 V c 1 t) u r e).trans ?_
  unfold BatchAttn.outArr
  refine Finset.sum_congr rfl fun d _ => ?_
  have hu : u.val = 0 := by omega
  have h0 : ((cfg2.win 0).blk t).view.emb (ix3 (0 : Fin 1) r d)
      = ix3 (((cfg2.win 2).blk t).view.emb (ix3 u r e) 0) (((cfg2.win 2).blk t).view.emb (ix3 u r e) 1) d := by
    funext a; apply Fin.ext
    match a with
    | ⟨0, _⟩ => show win2_0.index t (0 : Fin 3) * 1 + 1 * 0 = win2_2.index t (0 : Fin 3) * 1 + 1 * u.val; omega
    | ⟨1, _⟩ => show win2_0.index t (1 : Fin 3) * 1024 + 1 * r.val = win2_2.index t (1 : Fin 3) * 1024 + 1 * r.val; omega
    | ⟨2, _⟩ => show win2_0.index t (2 : Fin 3) * 1024 + 1 * d.val = d.val; omega
  have h1 : ((cfg2.win 1).blk t).view.emb (ix3 (0 : Fin 1) d e)
      = ix3 (((cfg2.win 2).blk t).view.emb (ix3 u r e) 0) d (((cfg2.win 2).blk t).view.emb (ix3 u r e) 2) := by
    funext a; apply Fin.ext
    match a with
    | ⟨0, _⟩ => show win2_1.index t (0 : Fin 3) * 1 + 1 * 0 = win2_2.index t (0 : Fin 3) * 1 + 1 * u.val; omega
    | ⟨1, _⟩ => show win2_1.index t (1 : Fin 3) * 1024 + 1 * d.val = d.val; omega
    | ⟨2, _⟩ => show win2_1.index t (2 : Fin 3) * 1024 + 1 * e.val = win2_2.index t (2 : Fin 3) * 1024 + 1 * e.val; omega
  have a0 : iblk2 V c 0 t (ix3 (0 : Fin 1) r d)
      = V c main_arg2 (ix3 (((cfg2.win 2).blk t).view.emb (ix3 u r e) 0) (((cfg2.win 2).blk t).view.emb (ix3 u r e) 1) d) := by
    show V c main_arg2 (((cfg2.win 0).blk t).view.emb (ix3 (0 : Fin 1) r d)) = _
    rw [h0]; rfl
  have a1 : iblk2 V c 1 t (ix3 (0 : Fin 1) d e)
      = V c main_v1 (ix3 (((cfg2.win 2).blk t).view.emb (ix3 u r e) 0) d (((cfg2.win 2).blk t).view.emb (ix3 u r e) 2)) := by
    show V c main_v1 (((cfg2.win 1).blk t).view.emb (ix3 (0 : Fin 1) d e)) = _
    rw [h1]; rfl
  exact congrArg₂ (fun (p q : EReal) => p * q) a0 a1

/-- An index of the array is in point `t`'s block iff each coordinate is in the block's range on its axis. -/
theorem r2_mem_blk (t : Fin cfg2.N) (i : S8x2048x1024.Idx) :
    i ∈ ((cfg2.win 2).blk t).view.set ↔ ∀ a : Fin 3, win2_2.index t a * S1x1024x1024.size a ≤ (i a).val
      ∧ (i a).val < win2_2.index t a * S1x1024x1024.size a + S1x1024x1024.size a := by
  show i ∈ ((View.whole main_v2).slice (win2_2.rect t)).set ↔ _
  rw [View.set_slice_whole, Rect.mem_set_unit]
  exact Iff.rfl

/-- Every index `(b, s, e)` of the array is in the block of the point `2 b + s / 1024`, which writes back. -/
theorem r2_cover (i : S8x2048x1024.Idx) :
    ∃ t : Fin cfg2.N, (cfg2.win 2).flush t = true ∧ i ∈ ((cfg2.win 2).blk t).view.set := by
  have hi0 : (i 0).val < 8 := (i 0).isLt
  have hi1 : (i 1).val < 2048 := (i 1).isLt
  have hi2 : (i 2).val < 1024 := (i 2).isLt
  have hlt : 2 * (i 0).val + (i 1).val / 1024 < cfg2.N := by rw [show cfg2.N = 16 from N_2]; omega
  obtain ⟨t, ht⟩ : ∃ t : Fin cfg2.N, t.val = 2 * (i 0).val + (i 1).val / 1024 := ⟨⟨_, hlt⟩, rfl⟩
  refine ⟨t, flush2_2 t, ?_⟩
  rw [r2_mem_blk]
  obtain ⟨-, -, -, -, -, -, g2, g0, g1⟩ := r2_idx_facts t
  intro a
  match a with
  | ⟨0, _⟩ =>
    show win2_2.index t (0 : Fin 3) * 1 ≤ (i 0).val ∧ (i 0).val < win2_2.index t (0 : Fin 3) * 1 + 1
    omega
  | ⟨1, _⟩ =>
    show win2_2.index t (1 : Fin 3) * 1024 ≤ (i 1).val ∧ (i 1).val < win2_2.index t (1 : Fin 3) * 1024 + 1024
    omega
  | ⟨2, _⟩ =>
    show win2_2.index t (2 : Fin 3) * 1024 ≤ (i 2).val ∧ (i 2).val < win2_2.index t (2 : Fin 3) * 1024 + 1024
    omega

/-- The result array after the region's last point: the batched product, index by index. -/
theorem out_final (c : Dev nD) :
    (dat2 (F := Ideal) V c).arrAt 2 cfg2.N = BatchAttn.outArr (V c main_arg2) (V c main_v1) :=
  (dat2 (F := Ideal) V c).arrAt_eq_of_cover 2 (BatchAttn.outArr (V c main_arg2) (V c main_v1))
    (fun t _ => r2_flushed_eq V c t) r2_cover

end Cert.KernelIdeal.Hand
end
-- ==== Proof.KernelValue.lean ====
/-
  The kernel program computes the batch-softmax tanh attention of the specification.

  The result array is what the output projection leaves, OUT(v, a), where v is the third argument as launched (no
  region writes an argument) and a is what the batch softmax left, SOFT(s), where s is what the score accumulator
  left, SCORE(q, k, v, W, U) of the arguments as launched. Composed, that is the specification's function.
-/
import proofs.«172361_j49082886259369_2_alg».proof.Proof.KernelRun
import proofs.«172361_j49082886259369_2_alg».proof.Proof.Region0
import proofs.«172361_j49082886259369_2_alg».proof.Proof.Region1
import proofs.«172361_j49082886259369_2_alg».proof.Proof.Region2

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The third argument, as the output projection finds it, is as launched. -/
theorem v_kept (c : Dev nD) : V2 m ρ c main_arg2 = m ((c.tc : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 2).trans (((dat0 (V0 m ρ) c).arrAt_in 2 rfl _).trans (A_eq0 (V0 m ρ) c 2))
    _ = m ((c.tc : Thread nD τ).loc main_arg2) := rfl

/-- The score array, as the softmax finds it. -/
theorem score_left (c : Dev nD) : V1 m ρ c main_v0 = BatchAttn.scoreArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W1_arr m ρ c 5).trans (score_final (V0 m ρ) c)

/-- The attention weights, as the output projection finds them. -/
theorem soft_left (c : Dev nD) : V2 m ρ c main_v1 = BatchAttn.softArr (BatchAttn.scoreArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :=
  ((W2_arr m ρ c 1).trans (soft_final (V1 m ρ) c)).trans (congrArg BatchAttn.softArr (score_left m ρ c))

/-- The result array after the run. -/
theorem result_eq (c : Dev nD) : W3 m ρ c (Proc.devRef .tc main_v2) = BatchAttn.attn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W3_arr m ρ c 2).trans ((out_final (V2 m ρ) c).trans ?_)
  rw [v_kept m ρ c, soft_left m ρ c]
  rfl

/-- Every weakly fair execution terminates, nothing faulting, with the result array at the specification's function of
    the arguments and the arguments as launched. -/
theorem run : θ_run defs (onTc (τ := τ) (main (F := Ideal))) ⟨m, fun _ => 0, ρ⟩ (fun r => ∀ c : Dev nD,
      r.2.mem ((c.tc : Thread nD τ).loc main_v2) = BatchAttn.attn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (result_eq m ρ c), (h c).2⟩) (run_out m ρ)

end Cert.KernelIdeal.Hand

end
-- ==== Proof.RefValue.lean ====
/-
  The reference program computes the batch-softmax tanh attention of the specification.

  Its twenty host operations are read one at a time at an index: the two projections and the score are sums over
  one contracted axis; the softmax along the batch axis is, at (b, d, e), exp(s(b,d,e) − M(d,e)) divided by the sum over
  b' of exp(s(b',d,e) − M(d,e)), where M(d,e) is the maximum over the batch folded from −∞ (the further maximum with −∞
  that the reference takes changes nothing, −∞ being the least extended real, and its sum starts from 0); the output is
  the sum over d of v(b,s,d) times the softmax at (b,d,e).
-/
import proofs.«172361_j49082886259369_2_alg».proof.Proof.Gen.ReferenceIdeal.Read
import proofs.«172361_j49082886259369_2_alg».proof.Proof.Spec
import Idealize.ShloMosaic.PureOps.Reduce

noncomputable section

namespace Cert.ReferenceIdeal.RefValue

open Idealize.ShloMosaic Idealize.ShloMosaic.ValueIdx
open Cert.ReferenceIdeal Cert.ReferenceIdeal.Gen Cert.ReferenceIdeal.Read

variable (x0 x1 x2 : (⟨S8x2048x1024, .f32⟩ : BufTy).Contents (Elt Ideal)) (x3 x4 : (⟨S1024x1024, .f32⟩ : BufTy).Contents (Elt Ideal))

/-- tanh of the two projections added, at (b, s, e). -/
theorem ref_fac (b : Fin 8) (s : Fin 2048) (e : Fin 1024) :
    val_main_v3 (F := Ideal) x0 x1 x3 x4 (ix3 b s e) = BatchAttn.fac x0 x1 x3 x4 b s e := by
  rw [val_main_v3_apply, val_main_v2_apply, val_main_v0_apply, val_main_v1_apply]
  unfold BatchAttn.fac
  show Ideal.tanh (_ + _) = _
  refine congrArg Ideal.tanh (congrArg₂ (· + ·) ?_ ?_)
  · refine Finset.sum_congr rfl fun k _ => congrArg₂ (· * ·) (congrArg x1 ?_) (congrArg x3 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · refine Finset.sum_congr rfl fun k _ => congrArg₂ (· * ·) (congrArg x0 ?_) (congrArg x4 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)

/-- The score stage. -/
theorem ref_score : val_main_v4 (F := Ideal) x0 x1 x2 x3 x4 = BatchAttn.scoreArr x0 x1 x2 x3 x4 := by
  funext i
  obtain ⟨b, d, e, rfl⟩ : ∃ (b : Fin 8) (d e : Fin 1024), i = ix3 b d e := ⟨i 0, i 1, i 2, eq_ix3 i⟩
  rw [val_main_v4_apply]
  show _ = BatchAttn.score x0 x1 x2 x3 x4 b d e
  unfold BatchAttn.score
  refine Finset.sum_congr rfl fun s _ => ?_
  have hl : lidx_main_v4 (ix3 b d e) s = ix3 b s d :=
    funext fun a => Fin.ext (by match a with | ⟨0, _⟩ => rfl | ⟨1, _⟩ => rfl | ⟨2, _⟩ => rfl)
  have hr : ridx_main_v4 (ix3 b d e) s = ix3 b s e :=
    funext fun a => Fin.ext (by match a with | ⟨0, _⟩ => rfl | ⟨1, _⟩ => rfl | ⟨2, _⟩ => rfl)
  rw [hl, hr, ref_fac]

/-- The batch maximum at (d, e): the fold of max from −∞ over the eight batches. -/
theorem ref_max (d e : Fin 1024) :
    val_main_v7 (F := Ideal) x0 x1 x2 x3 x4 (ix2 d e)
      = BatchAttn.colMax (fun b => val_main_v4 (F := Ideal) x0 x1 x2 x3 x4 (ix3 b d e)) := by
  rw [val_main_v7_apply, val_main_v6_apply, val_main_cst_0_apply]
  show max (Ideal.ofBits .f32 0xFF800000#32) (val_main_v5 (F := Ideal) x0 x1 x2 x3 x4 (ix2 d e)) = _
  rw [BatchAttn.ofBits_neg_inf, max_eq_right bot_le]
  unfold val_main_v5
  generalize val_main_v4 (F := Ideal) x0 x1 x2 x3 x4 = s
  have hred : S8x1024x1024.Reduces [0] S1024x1024 := by decide
  refine (Host.reduce_eq_fold_single (FloatOps.maximumf (F := Ideal) (φ := .f32)) s _ reducesTo_S8x1024x1024_S1024x1024_d0 hred h_S_ (ix2 d e)).trans ?_
  unfold BatchAttn.colMax
  have hf : (s ∘ hred.lift (ix2 d e)) = fun b : Fin 8 => s (ix3 b d e) :=
    funext fun b => congrArg s (funext fun a => Fin.ext (by match a with | ⟨0, _⟩ => rfl | ⟨1, _⟩ => rfl | ⟨2, _⟩ => rfl))
  rw [hf]
  rfl

/-- exp of the score less the batch maximum, at (b, d, e). -/
theorem ref_exp (b : Fin 8) (d e : Fin 1024) :
    val_main_v11 (F := Ideal) x0 x1 x2 x3 x4 (ix3 b d e)
      = Ideal.exp (val_main_v4 (F := Ideal) x0 x1 x2 x3 x4 (ix3 b d e)
          - BatchAttn.colMax (fun b' => val_main_v4 (F := Ideal) x0 x1 x2 x3 x4 (ix3 b' d e))) := by
  rw [val_main_v11_apply, val_main_v10_apply, val_main_v9_apply, val_main_v8_apply]
  have hi : idx_main_v8 (idx_main_v9 (ix3 b d e)) = ix2 d e :=
    funext fun a => Fin.ext (by match a with | ⟨0, _⟩ => rfl | ⟨1, _⟩ => rfl)
  rw [hi, ref_max]
  rfl

/-- The softmax stage, as a function of the score stage. -/
theorem ref_soft : val_main_v15 (F := Ideal) x0 x1 x2 x3 x4 = BatchAttn.softArr (val_main_v4 (F := Ideal) x0 x1 x2 x3 x4) := by
  funext i
  obtain ⟨b, d, e, rfl⟩ : ∃ (b : Fin 8) (d e : Fin 1024), i = ix3 b d e := ⟨i 0, i 1, i 2, eq_ix3 i⟩
  rw [val_main_v15_apply, val_main_v14_apply, val_main_v13_apply]
  have hi : idx_main_v13 (idx_main_v14 (ix3 b d e)) = ix2 d e :=
    funext fun a => Fin.ext (by match a with | ⟨0, _⟩ => rfl | ⟨1, _⟩ => rfl)
  rw [hi, val_main_v12_apply, ref_exp, val_main_cst_1_apply]
  show Ideal.div _ (Ideal.ofBits .f32 0x00000000#32 + _) = BatchAttn.soft (fun b' => val_main_v4 (F := Ideal) x0 x1 x2 x3 x4 (ix3 b' d e)) b
  rw [Ideal.ofBits_zero_f32, zero_add]
  unfold BatchAttn.soft
  refine congrArg (Ideal.div _) (Finset.sum_congr rfl fun k _ => ?_)
  have hk : idx_main_v12 (ix2 d e) k = ix3 k d e :=
    funext fun a => Fin.ext (by match a with | ⟨0, _⟩ => rfl | ⟨1, _⟩ => rfl | ⟨2, _⟩ => rfl)
  rw [hk, ref_exp]

/-- The output stage, as a function of the softmax stage. -/
theorem ref_out : val_main_v16 (F := Ideal) x0 x1 x2 x3 x4 = BatchAttn.outArr x2 (val_main_v15 (F := Ideal) x0 x1 x2 x3 x4) := by
  funext i
  obtain ⟨b, s, e, rfl⟩ : ∃ (b : Fin 8) (s : Fin 2048) (e : Fin 1024), i = ix3 b s e := ⟨i 0, i 1, i 2, eq_ix3 i⟩
  rw [val_main_v16_apply]
  show _ = ∑ d : Fin 1024, x2 (ix3 b s d) * val_main_v15 (F := Ideal) x0 x1 x2 x3 x4 (ix3 b d e)
  refine Finset.sum_congr rfl fun k _ => congrArg₂ (· * ·) (congrArg x2 ?_) (congrArg _ ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl | ⟨2, _⟩ => rfl)

/-- The reference's result is the specification's function of its five arguments. -/
theorem ref_attn : val_main_v16 (F := Ideal) x0 x1 x2 x3 x4 = BatchAttn.attn x0 x1 x2 x3 x4 := by
  rw [ref_out, ref_soft, ref_score]
  rfl

end Cert.ReferenceIdeal.RefValue

end
-- ==== Proof.lean ====
/-
  Additive tanh attention with the softmax over the batch axis: the three-region kernel against its einsum reference.

  On the extended reals both programs compute, for q, k, v : [8,2048,1024] and W, U : [1024,1024],
      out(b,s,e) = Σ_d v(b,s,d) · softmax_b( Σ_s' v(b,s',d) · tanh(Σ_d' k(b,s',d')W(d',e) + Σ_d' q(b,s',d')U(d',e)) ),
  the softmax taken along the batch axis b. The kernel sums the score over the 2048 positions in eight blocks of 256,
  accumulated point after point from zero, where the reference sums them at once: the same sum, by commutativity and
  associativity of addition on the extended reals, with no use of the inputs being finite. The kernel's roundings to
  bf16 are the identity on the extended reals. The idealization rewrote no operation, so it is the kernel's own text.
-/
import proofs.«172361_j49082886259369_2_alg».proof.Defs
import proofs.«172361_j49082886259369_2_alg».proof.Proof.Gen.Kernel
import proofs.«172361_j49082886259369_2_alg».proof.Proof.Gen.Kernel.Frame
import proofs.«172361_j49082886259369_2_alg».proof.Proof.Gen.KernelIdeal
import proofs.«172361_j49082886259369_2_alg».proof.Proof.Gen.KernelIdeal.Frame
import proofs.«172361_j49082886259369_2_alg».proof.Proof.Gen.ReferenceIdeal
import proofs.«172361_j49082886259369_2_alg».proof.Proof.Gen.ReferenceIdeal.Run
import proofs.«172361_j49082886259369_2_alg».proof.Proof.Gen.ReferenceIdeal.Read
import proofs.«172361_j49082886259369_2_alg».proof.Proof.Gen.Pre_finite_inputs
import proofs.«172361_j49082886259369_2_alg».proof.Proof.KernelValue
import proofs.«172361_j49082886259369_2_alg».proof.Proof.RefValue
import Idealize.ShloMosaic.Adequacy
import Idealize.ShloMosaic.Init

noncomputable section

namespace Cert.Proof

open Idealize.ShloMosaic Idealize.SL.Sem

/-- Both idealized programs, from memories agreeing on the arguments, end with the same result array: the
    specification's function of the arguments. -/
theorem algebraic [hKernelIdeal : Cert.KernelIdeal.Facts] [hReferenceIdeal : Cert.ReferenceIdeal.Facts] [hPre_finite_inputs : Cert.Pre_finite_inputs.Facts] :
    Cert.algebraic_KernelIdeal_ReferenceIdeal := by
  intro m ρ m' ρ' _ hagree
  refine ⟨fun c => BatchAttn.attn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.ref_attn, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
